-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x256 : Shape := ⟨3, ![2048, 256, 256]⟩
abbrev S_ : Shape := ⟨0, ![]⟩

class Facts : Prop where
  bcast_S_S2048x256x256 : S_.BroadcastsInDim S2048x256x256 (![] : Fin 0 → Fin S2048x256x256.rank)
  reducesTo_S2048x256x256_S_d0_1_2 : S2048x256x256.ReducesTo [0, 1, 2] S_
  h_S_ : 0 < S_.numel

variable [Facts]

def fn {F : FTy → Type} [FloatOps F] (main_arg0 : FVec F S2048x256x256 .f32) : IVec S_ 1 :=
  let main_v0 : FVec F S2048x256x256 .f32 := Host.absf main_arg0
  let main_cst : FVec F S_ .f32 := constant S_ .f32 0x7F800000#32
  let main_v1 : FVec F S2048x256x256 .f32 := broadcastInDim S2048x256x256 ![] bcast_S_S2048x256x256 main_cst
  let main_v2 : IVec S2048x256x256 1 := cmpf .olt main_v0 main_v1
  let main_c : IVec S_ 1 := constantI S_ 1 1#1
  let main_v3 : IVec S_ 1 := (fun x v => Host.reduce IntOp.andi x v reducesTo_S2048x256x256_S_d0_1_2 h_S_) main_v2 main_c
  main_v3
-- ==== Kernel.lean ====
abbrev S2048x256x256 : Shape := ⟨3, ![2048, 256, 256]⟩
abbrev S2048x7x7 : Shape := ⟨3, ![2048, 7, 7]⟩
abbrev S128x48x128 : Shape := ⟨3, ![128, 48, 128]⟩
abbrev S128x7x7 : Shape := ⟨3, ![128, 7, 7]⟩
abbrev S128x43x43 : Shape := ⟨3, ![128, 43, 43]⟩
abbrev S128x37x37 : Shape := ⟨3, ![128, 37, 37]⟩
abbrev S128x37 : Shape := ⟨2, ![128, 37]⟩
abbrev S128 : Shape := ⟨1, ![128]⟩
abbrev S128x1 : Shape := ⟨2, ![128, 1]⟩
abbrev S128x7 : Shape := ⟨2, ![128, 7]⟩
abbrev S128x1x7 : Shape := ⟨3, ![128, 1, 7]⟩

abbrev nBuf : Space → Nat
  | .hbm => 2
  | .vmem => 4
  | .smem => 0
  | _ => 0

abbrev bufTy : (tb : Table) → Fin (tcTables nBuf tb) → BufTy
  | .hbm, ⟨0, _⟩ => ⟨S2048x256x256, .f32⟩
  | .hbm, ⟨1, _⟩ => ⟨S2048x7x7, .f32⟩
  | .local _ .vmem, ⟨0, _⟩ => ⟨S128x48x128, .f32⟩
  | .local _ .vmem, ⟨1, _⟩ => ⟨S128x48x128, .f32⟩
  | .local _ .vmem, ⟨2, _⟩ => ⟨S128x7x7, .f32⟩
  | .local _ .vmem, ⟨3, _⟩ => ⟨S128x7x7, .f32⟩
  | _, _ => ⟨S2048x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x48x128_S128x48x128_0_0_0 : ∀ a, (![0, 0, 0] : Fin 3 → Nat) a + S128x48x128.size a ≤ S128x48x128.size a
  h_S128x48x128 : 0 < S128x48x128.numel
  slices_S128x48x128_o0_0_0_S128x43x43 : S128x48x128.Slices ![0, 0, 0] S128x43x43
  slices_S128x43x43_o0_0_0_S128x37x37 : S128x43x43.Slices ![0, 0, 0] S128x37x37
  reduces_S128x37x37_S128x37 : S128x37x37.Reduces [2] S128x37
  reduces_S128x37_S128 : S128x37.Reduces [1] S128
  slices_S128x43x43_o0_0_1_S128x37x37 : S128x43x43.Slices ![0, 0, 1] S128x37x37
  slices_S128x43x43_o0_0_2_S128x37x37 : S128x43x43.Slices ![0, 0, 2] S128x37x37
  slices_S128x43x43_o0_0_3_S128x37x37 : S128x43x43.Slices ![0, 0, 3] S128x37x37
  slices_S128x43x43_o0_0_4_S128x37x37 : S128x43x43.Slices ![0, 0, 4] S128x37x37
  slices_S128x43x43_o0_0_5_S128x37x37 : S128x43x43.Slices ![0, 0, 5] S128x37x37
  slices_S128x43x43_o0_0_6_S128x37x37 : S128x43x43.Slices ![0, 0, 6] S128x37x37
  shapeCasts_S128_S128x1 : S128.ShapeCasts S128x1
  concatenates_S128x1_S128x1_S128x1_S128x1_S128x1_S128x1_S128x1_S128x7_d1 : Shape.Concatenates [S128x1, S128x1, S128x1, S128x1, S128x1, S128x1, S128x1] S128x7 1
  slices_S128x43x43_o0_1_0_S128x37x37 : S128x43x43.Slices ![0, 1, 0] S128x37x37
  slices_S128x43x43_o0_1_1_S128x37x37 : S128x43x43.Slices ![0, 1, 1] S128x37x37
  slices_S128x43x43_o0_1_2_S128x37x37 : S128x43x43.Slices ![0, 1, 2] S128x37x37
  slices_S128x43x43_o0_1_3_S128x37x37 : S128x43x43.Slices ![0, 1, 3] S128x37x37
  slices_S128x43x43_o0_1_4_S128x37x37 : S128x43x43.Slices ![0, 1, 4] S128x37x37
  slices_S128x43x43_o0_1_5_S128x37x37 : S128x43x43.Slices ![0, 1, 5] S128x37x37
  slices_S128x43x43_o0_1_6_S128x37x37 : S128x43x43.Slices ![0, 1, 6] S128x37x37
  slices_S128x43x43_o0_2_0_S128x37x37 : S128x43x43.Slices ![0, 2, 0] S128x37x37
  slices_S128x43x43_o0_2_1_S128x37x37 : S128x43x43.Slices ![0, 2, 1] S128x37x37
  slices_S128x43x43_o0_2_2_S128x37x37 : S128x43x43.Slices ![0, 2, 2] S128x37x37
  slices_S128x43x43_o0_2_3_S128x37x37 : S128x43x43.Slices ![0, 2, 3] S128x37x37
  slices_S128x43x43_o0_2_4_S128x37x37 : S128x43x43.Slices ![0, 2, 4] S128x37x37
  slices_S128x43x43_o0_2_5_S128x37x37 : S128x43x43.Slices ![0, 2, 5] S128x37x37
  slices_S128x43x43_o0_2_6_S128x37x37 : S128x43x43.Slices ![0, 2, 6] S128x37x37
  slices_S128x43x43_o0_3_0_S128x37x37 : S128x43x43.Slices ![0, 3, 0] S128x37x37
  slices_S128x43x43_o0_3_1_S128x37x37 : S128x43x43.Slices ![0, 3, 1] S128x37x37
  slices_S128x43x43_o0_3_2_S128x37x37 : S128x43x43.Slices ![0, 3, 2] S128x37x37
  slices_S128x43x43_o0_3_3_S128x37x37 : S128x43x43.Slices ![0, 3, 3] S128x37x37
  slices_S128x43x43_o0_3_4_S128x37x37 : S128x43x43.Slices ![0, 3, 4] S128x37x37
  slices_S128x43x43_o0_3_5_S128x37x37 : S128x43x43.Slices ![0, 3, 5] S128x37x37
  slices_S128x43x43_o0_3_6_S128x37x37 : S128x43x43.Slices ![0, 3, 6] S128x37x37
  slices_S128x43x43_o0_4_0_S128x37x37 : S128x43x43.Slices ![0, 4, 0] S128x37x37
  slices_S128x43x43_o0_4_1_S128x37x37 : S128x43x43.Slices ![0, 4, 1] S128x37x37
  slices_S128x43x43_o0_4_2_S128x37x37 : S128x43x43.Slices ![0, 4, 2] S128x37x37
  slices_S128x43x43_o0_4_3_S128x37x37 : S128x43x43.Slices ![0, 4, 3] S128x37x37
  slices_S128x43x43_o0_4_4_S128x37x37 : S128x43x43.Slices ![0, 4, 4] S128x37x37
  slices_S128x43x43_o0_4_5_S128x37x37 : S128x43x43.Slices ![0, 4, 5] S128x37x37
  slices_S128x43x43_o0_4_6_S128x37x37 : S128x43x43.Slices ![0, 4, 6] S128x37x37
  slices_S128x43x43_o0_5_0_S128x37x37 : S128x43x43.Slices ![0, 5, 0] S128x37x37
  slices_S128x43x43_o0_5_1_S128x37x37 : S128x43x43.Slices ![0, 5, 1] S128x37x37
  slices_S128x43x43_o0_5_2_S128x37x37 : S128x43x43.Slices ![0, 5, 2] S128x37x37
  slices_S128x43x43_o0_5_3_S128x37x37 : S128x43x43.Slices ![0, 5, 3] S128x37x37
  slices_S128x43x43_o0_5_4_S128x37x37 : S128x43x43.Slices ![0, 5, 4] S128x37x37
  slices_S128x43x43_o0_5_5_S128x37x37 : S128x43x43.Slices ![0, 5, 5] S128x37x37
  slices_S128x43x43_o0_5_6_S128x37x37 : S128x43x43.Slices ![0, 5, 6] S128x37x37
  slices_S128x43x43_o0_6_0_S128x37x37 : S128x43x43.Slices ![0, 6, 0] S128x37x37
  slices_S128x43x43_o0_6_1_S128x37x37 : S128x43x43.Slices ![0, 6, 1] S128x37x37
  slices_S128x43x43_o0_6_2_S128x37x37 : S128x43x43.Slices ![0, 6, 2] S128x37x37
  slices_S128x43x43_o0_6_3_S128x37x37 : S128x43x43.Slices ![0, 6, 3] S128x37x37
  slices_S128x43x43_o0_6_4_S128x37x37 : S128x43x43.Slices ![0, 6, 4] S128x37x37
  slices_S128x43x43_o0_6_5_S128x37x37 : S128x43x43.Slices ![0, 6, 5] S128x37x37
  slices_S128x43x43_o0_6_6_S128x37x37 : S128x43x43.Slices ![0, 6, 6] S128x37x37
  shapeCasts_S128x7_S128x1x7 : S128x7.ShapeCasts S128x1x7
  concatenates_S128x1x7_S128x1x7_S128x1x7_S128x1x7_S128x1x7_S128x1x7_S128x1x7_S128x7x7_d1 : Shape.Concatenates [S128x1x7, S128x1x7, S128x1x7, S128x1x7, S128x1x7, S128x1x7, S128x1x7] S128x7x7 1
  inb_S128x7x7_S128x7x7_0_0_0 : ∀ a, (![0, 0, 0] : Fin 3 → Nat) a + S128x7x7.size a ≤ S128x7x7.size a
  h_S128x7x7 : 0 < S128x7x7.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x48x128.size a < S2048x256x256.size a
  hwx0_0 : ∀ i : grid0.Coords, EltTy.bits .f32 = 32 ∨ (Rect.unit (s := S2048x256x256) (fun a => cc0_transform_0 i a * S128x48x128.size a) (fun a => (Pipeline.Clip.of (cc0_transform_0 i a) (S128x48x128.size a) (S2048x256x256.size a)).extent (S128x48x128.size a)) fun a => Pipeline.Clip.inb (Pipeline.Clip.ok_of (hstart0_0 i a))).WholeWords (EltTy.packing .f32)
  hwxs0_0 : ∀ i : grid0.Coords, EltTy.bits .f32 = 32 ∨ (Rect.unit (s := S128x48x128) (fun _ => 0) (fun a => (Pipeline.Clip.of (cc0_transform_0 i a) (S128x48x128.size a) (S2048x256x256.size a)).extent (S128x48x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7x7.size a ≤ S2048x7x7.size a
  hwx0_1 : ∀ i : grid0.Coords, EltTy.bits .f32 = 32 ∨ (Rect.block (s := S2048x7x7) S128x7x7.size (cc0_transform_1 i) (hinb0_1 i)).WholeWords (EltTy.packing .f32)

variable [Facts₀]

abbrev win0_0 : Pipeline.Window sig grid0 :=
  Pipeline.Window.ofSpecClip (Memref.whole main_arg0) S128x48x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S128x7x7.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256x256 : Shape := ⟨3, ![2048, 256, 256]⟩
abbrev S2048x43x43 : Shape := ⟨3, ![2048, 43, 43]⟩
abbrev S_ : Shape := ⟨0, ![]⟩
abbrev S2048x7x7 : Shape := ⟨3, ![2048, 7, 7]⟩

abbrev nBuf : Space → Nat
  | .hbm => 5
  | .vmem => 0
  | .smem => 0
  | _ => 0

abbrev bufTy : (tb : Table) → Fin (tcTables nBuf tb) → BufTy
  | .hbm, ⟨0, _⟩ => ⟨S2048x256x256, .f32⟩
  | .hbm, ⟨1, _⟩ => ⟨S2048x43x43, .f32⟩
  | .hbm, ⟨2, _⟩ => ⟨S_, .f32⟩
  | .hbm, ⟨3, _⟩ => ⟨S_, .f32⟩
  | .hbm, ⟨4, _⟩ => ⟨S2048x7x7, .f32⟩
  | _, _ => ⟨S2048x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  slices_S2048x256x256_S2048x43x43_0_0_0 : S2048x256x256.Slices ![0, 0, 0] S2048x43x43
  bcast_S_S_ : S_.BroadcastsInDim S_ (![] : Fin 0 → Fin S_.rank)
  reduceWindows_S2048x43x43_S2048x7x7_w1s1p0_0_w37s1p0_0_w37s1p0_0 : S2048x43x43.ReduceWindows (![1, 37, 37] : Fin 3 → Nat) ![1, 1, 1] ![0, 0, 0] ![0, 0, 0] S2048x7x7
  h_S_ : 0 < S_.numel

variable [Facts₀]

class Facts : Prop extends Facts₀ where

variable [Facts]
-- ==== Proof.BodyK.lean ====
/-
  The frame of the pooling kernel: every weakly fair execution of @main terminates without a fault and leaves the
  argument array as it was — together with what the run leaves in the result array, block by block.

  The pallas_call walks 16 grid points; point t stages the [128, 48, 128] block of the argument that starts at
  channel 128·t, row 0, column 0, and writes back the [128, 7, 7] block of the result that starts at channel 128·t.
  The argument's 256 rows are not a multiple of 48, so the pipeline is one that may cut a block at the array's end;
  but the only row-block ever staged is the first (rows 0‥47), which lies inside the array, so no transfer is cut
  (`uncut`), and what the body finds in the input buffer is the argument's block whatever the buffer held before
  (`held`, `held_indep`).

  The body is one load of the whole input buffer, pure arithmetic (`poolBlock`: 49 window maxima laid out as a
  [128, 7, 7] vector), a dead load of the result's buffer, and one store of the whole result buffer. Its triple is
  `body_triple`; the proof data `dats` says what each buffer holds after the body at each point; `body_obligation`
  is the per-point obligation of the pipeline library, `run` the library's frame run from it, and `frame` the frame
  claim. Stated for any float instance.
-/
import proofs.«102390_j7215545057804_2_alg».proof.Proof.Gen.Kernel.Frame
import proofs.«102390_j7215545057804_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No transfer of the argument's window is cut -/

/-- At every grid point the staged block of the argument lies inside the array on every axis. -/
theorem uncut : ∀ (t : Fin cfg0.N) (a : Fin 3), (cfg0.win 0).clip (cfg0.grid.coords t) a = none :=
  (by decide +kernel : ∀ (t : Fin grid0.N) (a : Fin 3), win0_0.clip (grid0.coords t) a = none)

/-- What the input buffer holds when the body runs at point `t`: the argument's block there. (The filler past a
    cut is never reached: `held_indep`.) -/
def held (c : Dev nD) (t : Fin cfg0.N) : S128x48x128.Idx → Elt F .f32 :=
  win0_0.fill (grid0.coords t) (fun _ => Scalar.ofBits .f32 0#32) (iblk m c 0 t)

/-- The block fills the whole buffer: nothing of the buffer's earlier contents is left. -/
theorem held_indep (c : Dev nD) (t : Fin cfg0.N) (d : S128x48x128.Idx → Elt F .f32) :
    win0_0.fill (grid0.coords t) d (iblk m c 0 t) = held m c t :=
  Pipeline.fill_of_clip_none (cfg := cfg0) 0 (grid0.coords t) (uncut t) _ _ _

/-! ## The body's accesses and its arithmetic -/

/-- The whole input buffer, and the whole result buffer, as the rectangles the body loads and stores through. -/
abbrev wholeIn : Rect S128x48x128 := Rect.unit (s := S128x48x128) ![0, 0, 0] S128x48x128.size inb_S128x48x128_S128x48x128_0_0_0
abbrev wholeOut : Rect S128x7x7 := Rect.unit (s := S128x7x7) ![0, 0, 0] S128x7x7.size inb_S128x7x7_S128x7x7_0_0_0

/-- The [128, 43, 43] corner of the loaded block that the 49 windows are cut from. -/
abbrev corner (v0 : Vec F S128x48x128 .f32) : FVec F S128x43x43 .f32 := k0_pay2 v0

/-- The body's stored value as one function of the loaded block: the seven rows of window maxima, each of seven
    entries, stacked. -/
def poolBlock (v0 : Vec F S128x48x128 .f32) : FVec F S128x7x7 .f32 :=
  k0_pay1 (k0_pay3 v0)
    (k0_pay7 (corner v0) (k0_pay4 v0) (k0_pay5 v0) (k0_pay6 v0))
    (k0_pay14 (corner v0) (k0_pay8 (corner v0)) (k0_pay9 (corner v0)) (k0_pay10 (corner v0)) (k0_pay11 (corner v0)) (k0_pay12 (corner v0)) (k0_pay13 (corner v0)))
    (k0_pay15 (corner v0))
    (k0_pay17 (corner v0) (k0_pay16 (corner v0)))
    (k0_pay22 (corner v0) (k0_pay18 (corner v0)) (k0_pay19 (corner v0)) (k0_pay20 (corner v0)) (k0_pay21 (corner v0)))
    (k0_pay23 (corner v0)) (k0_pay24 (corner v0)) (k0_pay25 (corner v0)) (k0_pay26 (corner v0)) (k0_pay27 (corner v0))
    (k0_pay28 (corner v0)) (k0_pay29 (corner v0))

/-- What the result's buffer holds after the body, from the input buffer's contents: its one store. -/
def stored (x0 : Vec F S128x48x128 .f32) : Vec F S128x7x7 .f32 :=
  View.canon [⟨wholeOut, poolBlock (View.ld x0 wholeIn)⟩]

/-- The one store covers the buffer. -/
theorem stored_covers (p0 : Vec F S128x7x7 .f32) (y : S128x7x7.Idx) :
    ∃ pc ∈ ([⟨wholeOut, p0⟩] : List (View.Piece (Elt F) S128x7x7 .f32)), y ∈ pc.1.set :=
  View.cover_of_tiled [⟨wholeOut, p0⟩] S128x7x7.size (by rfl) y

/-! ## The body's triple -/

set_option maxHeartbeats 1000000 in
/-- On whole staging memrefs, the input's at contents `x0` and the result's at anything, the body runs to the
    continuation with the input's unchanged and the result's at `stored x0`. -/
theorem body_triple (c : Dev nD) (E : Set ℕ) (i : grid0.Coords)
    (arg1 : Memref sig .tc .vmem S128x48x128 .f32) (harg1 : arg1.IsWhole)
    (arg2 : Memref sig .tc .vmem S128x7x7 .f32) (harg2 : arg2.IsWhole)
    (x0 : Vec F S128x48x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stored x0)) -∗ K ⟨⟩))
      ⊢ wp frame (wpE (defs₀ (F := F)) Variants.none c none) E (cc0__roi_pool_kernel i arg1 harg1 arg2 harg2) K := by
  simp only [cc0__roi_pool_kernel_eq_skeleton]; unfold cc0__roi_pool_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  try dsimp only
  exact View.read_writes_eq_canon _ _ _ (stored_covers _)

/-! ## The pipeline's proof data -/

/-- On core `c`: the arrays as the region finds them; after the body at point `t` the input buffer still at the
    argument's block and the result buffer at `stored` of it; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => held m c t
    | ⟨1, _⟩ => stored (held m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = held m c t := by dsimp only [dats]
theorem after_out (c : Dev nD) (t : Fin cfg0.N) : (dats m 0 c).after 1 t = stored (held m c t) := by dsimp only [dats]

/-- The input buffer when the body runs: just fetched, the argument's block. -/
theorem before_in (c : Dev nD) (t : Fin cfg0.N) (d) : (dats m 0 c).before 0 t d = held m c t := by
  unfold Dat.before; rw [if_pos (fetch0_0 t)]
  exact held_indep m c t d

/-- The result buffer when the body runs: written back at the point before (or never used yet), so at contents
    nothing names. -/
theorem before_out (c : Dev nD) (t : Fin cfg0.N) (d) : (dats m 0 c).before 1 t d = d :=
  (dats m 0 c).before_out_reset 1 rfl t
    (by
      by_cases h0 : t.val = 0
      · exact .inl h0
      · exact .inr ⟨h0, flush0_1 _⟩) d

/-! ## The body obligation -/

/-- The body at point `t`, from what the pipeline hands it to what it takes back: the input buffer arrives at the
    argument's block and leaves at it (stated, as the library asks of a window that may be cut, on the part a
    transfer moves — here all of it); the result buffer arrives at anything and leaves at `stored`. -/
theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
        iprop((dats m 0 c).Φ t.succ ∗ (dats m 0 c).owesAt () t.succ
          ∗ (∃ d, owns (c : Thread nD τ) (st0_0 t) fullShare
              ((cfg0.win 0).fill (cfg0.grid.coords t) d ((cfg0.win 0).cut (cfg0.grid.coords t) ((dats m 0 c).after 0 t))))
          ∗ owns (c : Thread nD τ) (st0_1 t) fullShare ((dats m 0 c).after 1 t))) := by
  unfold bodyAt0
  simp only [before_in, before_out]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_triple c Set.univ _ _ _ _ _ (held m c t) _)
  isplitl [H0]; · iexact H0
  isplitl [H1]; · iexists _; iexact H1
  iintro ⟨H0, H1⟩
  isplitl [HΦ]; · iexact HΦ
  isplitl [Ho]; · iexact Ho
  isplitl [H0]
  · iexists held m c t
    rw [(cfg0.win 0).fill_cut]
    iexact H0
  · iexact H1

theorem body_obligation (c : Dev nD) : BodyObligationLoose (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, and every final state has each array of the pipeline at what
    the library computes from the proof data and every other unscoped buffer as the region found it. -/
theorem run : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's post: the argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run m ρ)

end Cert.Kernel.Body

end
-- ==== Proof.BodyI.lean ====
/-
  The frame of the pooling kernel: every weakly fair execution of @main terminates without a fault and leaves the
  argument array as it was — together with what the run leaves in the result array, block by block.

  The pallas_call walks 16 grid points; point t stages the [128, 48, 128] block of the argument that starts at
  channel 128·t, row 0, column 0, and writes back the [128, 7, 7] block of the result that starts at channel 128·t.
  The argument's 256 rows are not a multiple of 48, so the pipeline is one that may cut a block at the array's end;
  but the only row-block ever staged is the first (rows 0‥47), which lies inside the array, so no transfer is cut
  (`uncut`), and what the body finds in the input buffer is the argument's block whatever the buffer held before
  (`held`, `held_indep`).

  The body is one load of the whole input buffer, pure arithmetic (`poolBlock`: 49 window maxima laid out as a
  [128, 7, 7] vector), a dead load of the result's buffer, and one store of the whole result buffer. Its triple is
  `body_triple`; the proof data `dats` says what each buffer holds after the body at each point; `body_obligation`
  is the per-point obligation of the pipeline library, `run` the library's frame run from it, and `frame` the frame
  claim. Stated for any float instance.
-/
import proofs.«102390_j7215545057804_2_alg».proof.Proof.Gen.KernelIdeal.Frame
import proofs.«102390_j7215545057804_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No transfer of the argument's window is cut -/

/-- At every grid point the staged block of the argument lies inside the array on every axis. -/
theorem uncut : ∀ (t : Fin cfg0.N) (a : Fin 3), (cfg0.win 0).clip (cfg0.grid.coords t) a = none :=
  (by decide +kernel : ∀ (t : Fin grid0.N) (a : Fin 3), win0_0.clip (grid0.coords t) a = none)

/-- What the input buffer holds when the body runs at point `t`: the argument's block there. (The filler past a
    cut is never reached: `held_indep`.) -/
def held (c : Dev nD) (t : Fin cfg0.N) : S128x48x128.Idx → Elt F .f32 :=
  win0_0.fill (grid0.coords t) (fun _ => Scalar.ofBits .f32 0#32) (iblk m c 0 t)

/-- The block fills the whole buffer: nothing of the buffer's earlier contents is left. -/
theorem held_indep (c : Dev nD) (t : Fin cfg0.N) (d : S128x48x128.Idx → Elt F .f32) :
    win0_0.fill (grid0.coords t) d (iblk m c 0 t) = held m c t :=
  Pipeline.fill_of_clip_none (cfg := cfg0) 0 (grid0.coords t) (uncut t) _ _ _

/-! ## The body's accesses and its arithmetic -/

/-- The whole input buffer, and the whole result buffer, as the rectangles the body loads and stores through. -/
abbrev wholeIn : Rect S128x48x128 := Rect.unit (s := S128x48x128) ![0, 0, 0] S128x48x128.size inb_S128x48x128_S128x48x128_0_0_0
abbrev wholeOut : Rect S128x7x7 := Rect.unit (s := S128x7x7) ![0, 0, 0] S128x7x7.size inb_S128x7x7_S128x7x7_0_0_0

/-- The [128, 43, 43] corner of the loaded block that the 49 windows are cut from. -/
abbrev corner (v0 : Vec F S128x48x128 .f32) : FVec F S128x43x43 .f32 := k0_pay2 v0

/-- The body's stored value as one function of the loaded block: the seven rows of window maxima, each of seven
    entries, stacked. -/
def poolBlock (v0 : Vec F S128x48x128 .f32) : FVec F S128x7x7 .f32 :=
  k0_pay1 (k0_pay3 v0)
    (k0_pay7 (corner v0) (k0_pay4 v0) (k0_pay5 v0) (k0_pay6 v0))
    (k0_pay14 (corner v0) (k0_pay8 (corner v0)) (k0_pay9 (corner v0)) (k0_pay10 (corner v0)) (k0_pay11 (corner v0)) (k0_pay12 (corner v0)) (k0_pay13 (corner v0)))
    (k0_pay15 (corner v0))
    (k0_pay17 (corner v0) (k0_pay16 (corner v0)))
    (k0_pay22 (corner v0) (k0_pay18 (corner v0)) (k0_pay19 (corner v0)) (k0_pay20 (corner v0)) (k0_pay21 (corner v0)))
    (k0_pay23 (corner v0)) (k0_pay24 (corner v0)) (k0_pay25 (corner v0)) (k0_pay26 (corner v0)) (k0_pay27 (corner v0))
    (k0_pay28 (corner v0)) (k0_pay29 (corner v0))

/-- What the result's buffer holds after the body, from the input buffer's contents: its one store. -/
def stored (x0 : Vec F S128x48x128 .f32) : Vec F S128x7x7 .f32 :=
  View.canon [⟨wholeOut, poolBlock (View.ld x0 wholeIn)⟩]

/-- The one store covers the buffer. -/
theorem stored_covers (p0 : Vec F S128x7x7 .f32) (y : S128x7x7.Idx) :
    ∃ pc ∈ ([⟨wholeOut, p0⟩] : List (View.Piece (Elt F) S128x7x7 .f32)), y ∈ pc.1.set :=
  View.cover_of_tiled [⟨wholeOut, p0⟩] S128x7x7.size (by rfl) y

/-! ## The body's triple -/

set_option maxHeartbeats 1000000 in
/-- On whole staging memrefs, the input's at contents `x0` and the result's at anything, the body runs to the
    continuation with the input's unchanged and the result's at `stored x0`. -/
theorem body_triple (c : Dev nD) (E : Set ℕ) (i : grid0.Coords)
    (arg1 : Memref sig .tc .vmem S128x48x128 .f32) (harg1 : arg1.IsWhole)
    (arg2 : Memref sig .tc .vmem S128x7x7 .f32) (harg2 : arg2.IsWhole)
    (x0 : Vec F S128x48x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stored x0)) -∗ K ⟨⟩))
      ⊢ wp frame (wpE (defs₀ (F := F)) Variants.none c none) E (cc0__roi_pool_kernel i arg1 harg1 arg2 harg2) K := by
  simp only [cc0__roi_pool_kernel_eq_skeleton]; unfold cc0__roi_pool_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  try dsimp only
  exact View.read_writes_eq_canon _ _ _ (stored_covers _)

/-! ## The pipeline's proof data -/

/-- On core `c`: the arrays as the region finds them; after the body at point `t` the input buffer still at the
    argument's block and the result buffer at `stored` of it; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => held m c t
    | ⟨1, _⟩ => stored (held m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = held m c t := by dsimp only [dats]
theorem after_out (c : Dev nD) (t : Fin cfg0.N) : (dats m 0 c).after 1 t = stored (held m c t) := by dsimp only [dats]

/-- The input buffer when the body runs: just fetched, the argument's block. -/
theorem before_in (c : Dev nD) (t : Fin cfg0.N) (d) : (dats m 0 c).before 0 t d = held m c t := by
  unfold Dat.before; rw [if_pos (fetch0_0 t)]
  exact held_indep m c t d

/-- The result buffer when the body runs: written back at the point before (or never used yet), so at contents
    nothing names. -/
theorem before_out (c : Dev nD) (t : Fin cfg0.N) (d) : (dats m 0 c).before 1 t d = d :=
  (dats m 0 c).before_out_reset 1 rfl t
    (by
      by_cases h0 : t.val = 0
      · exact .inl h0
      · exact .inr ⟨h0, flush0_1 _⟩) d

/-! ## The body obligation -/

/-- The body at point `t`, from what the pipeline hands it to what it takes back: the input buffer arrives at the
    argument's block and leaves at it (stated, as the library asks of a window that may be cut, on the part a
    transfer moves — here all of it); the result buffer arrives at anything and leaves at `stored`. -/
theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
        iprop((dats m 0 c).Φ t.succ ∗ (dats m 0 c).owesAt () t.succ
          ∗ (∃ d, owns (c : Thread nD τ) (st0_0 t) fullShare
              ((cfg0.win 0).fill (cfg0.grid.coords t) d ((cfg0.win 0).cut (cfg0.grid.coords t) ((dats m 0 c).after 0 t))))
          ∗ owns (c : Thread nD τ) (st0_1 t) fullShare ((dats m 0 c).after 1 t))) := by
  unfold bodyAt0
  simp only [before_in, before_out]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_triple c Set.univ _ _ _ _ _ (held m c t) _)
  isplitl [H0]; · iexact H0
  isplitl [H1]; · iexists _; iexact H1
  iintro ⟨H0, H1⟩
  isplitl [HΦ]; · iexact HΦ
  isplitl [Ho]; · iexact Ho
  isplitl [H0]
  · iexists held m c t
    rw [(cfg0.win 0).fill_cut]
    iexact H0
  · iexact H1

theorem body_obligation (c : Dev nD) : BodyObligationLoose (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, and every final state has each array of the pipeline at what
    the library computes from the proof data and every other unscoped buffer as the region found it. -/
theorem run : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's post: the argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run m ρ)

end Cert.KernelIdeal.Body

end
-- ==== Proof.WindowMax.lean ====
/-
  The maximum over a 37 × 37 window, and the two shapes in which the programs compute it.

  For an array `x` of extended reals over [2048, 256, 256] and an output index (c, i, j) of [2048, 7, 7], the
  pooled value is the least upper bound of x(c, i + p, j + q) over 0 ≤ p, q < 37. An extended real is determined
  by the set of its upper bounds, so each way of computing the maximum — a left fold of `max` from -∞ along a
  list, a fold of `max` over a finite set — is identified with the pooled value by showing that it has exactly
  those upper bounds.
-/
import Idealize.ShloMosaic.PureOps.Ideal
import Idealize.ShloMosaic.PureOps.Ideal.Laws
import Idealize.ShloMosaic.Lib.ValueIdx

noncomputable section

namespace Cert.WindowMax

open Idealize.ShloMosaic Idealize.ShloMosaic.ValueIdx

/-- The f32 pattern of -∞ denotes the bottom extended real. -/
theorem neg_inf : Ideal.ofBits .f32 0xFF800000#32 = (⊥ : EReal) := by
  simp [Ideal.ofBits, Ideal.ieee]

/-- The upper bounds of a left fold of `max` along a list: those of the start value and of every term. -/
theorem foldl_max_le_iff {α β : Type} [LinearOrder α] (g : β → α) (l : List β) (v z : α) :
    l.foldl (fun r n => max r (g n)) v ≤ z ↔ v ≤ z ∧ ∀ n ∈ l, g n ≤ z := by
  induction l generalizing v with
  | nil => simp
  | cons a l ih =>
    rw [List.foldl_cons, ih, max_le_iff]
    constructor
    · rintro ⟨⟨hv, ha⟩, hl⟩
      exact ⟨hv, fun n hn => by
        rcases List.mem_cons.mp hn with rfl | hn
        · exact ha
        · exact hl n hn⟩
    · rintro ⟨hv, hl⟩
      exact ⟨⟨hv, hl a (List.mem_cons_self ..)⟩, fun n hn => hl n (List.mem_cons_of_mem _ hn)⟩

/-- The window's index type: one channel, 37 rows, 37 columns. -/
abbrev Win : Shape := ⟨3, ![1, 37, 37]⟩

/-- A statement about every position of the window is a statement about every pair (row, column). -/
theorem forall_win {P : Win.Idx → Prop} : (∀ w : Win.Idx, P w) ↔ ∀ p q : Fin 37, P (ix3 (0 : Fin 1) p q) := by
  constructor
  · exact fun h p q => h _
  · intro h w
    have e := eq_ix3 w
    rw [show w 0 = (0 : Fin 1) from Fin.ext (by have h : (w 0).val < 1 := (w 0).isLt; show (w 0).val = 0; omega)] at e
    rw [e]; exact h _ _

/-- Entry (c, i + p, j + q) of the array, for an output index (c, i, j) and a window position (p, q). -/
abbrev at_ (jj : (⟨3, ![2048, 7, 7]⟩ : Shape).Idx) (p q : Fin 37) : (⟨3, ![2048, 256, 256]⟩ : Shape).Idx :=
  ix3 (n0 := 2048) (n1 := 256) (n2 := 256) ⟨(jj 0).val, (jj 0).isLt⟩
    ⟨(jj 1).val + p.val, by have h1 : (jj 1).val < 7 := (jj 1).isLt; have := p.isLt; omega⟩
    ⟨(jj 2).val + q.val, by have h2 : (jj 2).val < 7 := (jj 2).isLt; have := q.isLt; omega⟩

/-- THE POOLED VALUE: the least upper bound of the window's entries. -/
def pooled (x : (⟨3, ![2048, 256, 256]⟩ : Shape).Idx → EReal) (jj : (⟨3, ![2048, 7, 7]⟩ : Shape).Idx) : EReal :=
  ⨆ p : Fin 37, ⨆ q : Fin 37, x (at_ jj p q)

theorem pooled_le_iff (x : (⟨3, ![2048, 256, 256]⟩ : Shape).Idx → EReal) (jj : (⟨3, ![2048, 7, 7]⟩ : Shape).Idx) (z : EReal) :
    pooled x jj ≤ z ↔ ∀ p q : Fin 37, x (at_ jj p q) ≤ z := by
  unfold pooled; simp only [iSup_le_iff]

/-- Whatever has exactly the window's upper bounds is the pooled value. -/
theorem eq_pooled (x : (⟨3, ![2048, 256, 256]⟩ : Shape).Idx → EReal) (jj : (⟨3, ![2048, 7, 7]⟩ : Shape).Idx) (y : EReal)
    (h : ∀ z, y ≤ z ↔ ∀ p q : Fin 37, x (at_ jj p q) ≤ z) : y = pooled x jj :=
  eq_of_forall_ge_iff fun z => (h z).trans (pooled_le_iff x jj z).symm

end Cert.WindowMax

end
-- ==== Proof.PoolEntry.lean ====
/-
  The arithmetic of one block of the pooling kernel, read at an index over the extended reals.

  From the [128, 43, 43] corner `v1` of a staged block the body cuts, for each of the 49 offsets (a, b) with
  0 ≤ a, b ≤ 6, the [128, 37, 37] window starting at (a, b); reduces it with `max` from -∞ along its columns and
  then along its rows, leaving a [128] vector; makes each vector a column and lays the seven columns of one row
  offset side by side; makes each [128, 7] row a slab and stacks the seven slabs. Here each step is read at an
  index, and the whole is characterized by its upper bounds: entry (c, a, b) of the result is bounded by z exactly
  when every v1(c, a + p, b + q), 0 ≤ p, q < 37, is. Nothing here mentions a program: the shapes are literal.
-/
import proofs.«102390_j7215545057804_2_alg».proof.Proof.WindowMax
import Idealize.ShloMosaic.Lib.Pipeline.Value

noncomputable section

namespace Cert.PoolEntry

open Idealize.ShloMosaic Idealize.ShloMosaic.ValueIdx Cert.WindowMax

abbrev Crop : Shape := ⟨3, ![128, 43, 43]⟩
abbrev Cut : Shape := ⟨3, ![128, 37, 37]⟩
abbrev Rows : Shape := ⟨2, ![128, 37]⟩
abbrev Chan : Shape := ⟨1, ![128]⟩
abbrev Col : Shape := ⟨2, ![128, 1]⟩
abbrev Row : Shape := ⟨2, ![128, 7]⟩
abbrev Slab : Shape := ⟨3, ![128, 1, 7]⟩
abbrev Grid : Shape := ⟨3, ![128, 7, 7]⟩

/-- ONE WINDOW'S MAXIMUM. The maximum along the columns and then along the rows of the window at (a, b), at channel
    c, is bounded by z exactly when every entry of the window is: a fold of `max` from -∞ over a finite set has the
    upper bounds of its terms, twice. -/
theorem entry_le_iff (v1 : FVec Ideal Crop .f32) (a b : Nat) (ha : a + 37 ≤ 43) (hb : b + 37 ≤ 43)
    (hs : Crop.Slices ![0, a, b] Cut) (h2 : Cut.Reduces [2] Rows) (h1 : Rows.Reduces [1] Chan)
    (hφ2 : FKind.Formats .f32) (hacc2 : (0xFF800000#32 : BitVec 32) = FKind.maximumf.neutral .f32 hφ2)
    (hφ1 : FKind.Formats .f32) (hacc1 : (0xFF800000#32 : BitVec 32) = FKind.maximumf.neutral .f32 hφ1)
    (c : Fin 128) (z : EReal) :
    multiReduction .maximumf [1] Chan (multiReduction .maximumf [2] Rows (extractStridedSlice Cut ![0, a, b] v1 hs)
        0xFF800000#32 h2 hφ2 hacc2) 0xFF800000#32 h1 hφ1 hacc1 (ix1 c) ≤ z
      ↔ ∀ p q : Fin 37, v1 (ix3 c ⟨a + p.val, by have := p.isLt; omega⟩ ⟨b + q.val, by have := q.isLt; omega⟩) ≤ z := by
  have hbot : (FloatOps.ofBits (F := Ideal) .f32 0xFF800000#32 : EReal) = ⊥ := neg_inf
  rw [Ideal.multiReduction_maximumf_single, Finset.fold_max_le, hbot]
  simp only [bot_le, true_and, Finset.mem_univ, forall_true_left, Function.comp_apply]
  refine forall_congr' fun (p : Fin 37) => ?_
  rw [Ideal.multiReduction_maximumf_single, Finset.fold_max_le, hbot]
  simp only [bot_le, true_and, Finset.mem_univ, forall_true_left, Function.comp_apply]
  refine forall_congr' fun (q : Fin 37) => ?_
  rw [extractStridedSlice_apply ![0, a, b] v1 hs _
    (ix3 c ⟨a + p.val, by have := p.isLt; omega⟩ ⟨b + q.val, by have := q.isLt; omega⟩) (fun ax => match ax with
      | ⟨0, _⟩ => by show c.val = 0 + c.val; omega
      | ⟨1, _⟩ => rfl
      | ⟨2, _⟩ => rfl)]

/-- A [128] vector viewed as a column, read at (c, 0). -/
theorem col_apply (e : Chan.Idx → EReal) (hc : Chan.ShapeCasts Col) (c : Fin 128) :
    shapeCast Col e hc (ix2 c (0 : Fin 1)) = e (ix1 c) :=
  shapeCast_apply e hc _ _ (by rw [Shape.rowMajor_val_one, Shape.rowMajor_val_two]; show c.val = c.val * 1 + 0; omega)

/-- A [128, 7] matrix viewed as a slab [128, 1, 7], read at (c, 0, j). -/
theorem slab_apply (r : Row.Idx → EReal) (hc : Row.ShapeCasts Slab) (c : Fin 128) (j : Fin 7) :
    shapeCast Slab r hc (ix3 c (0 : Fin 1) j) = r (ix2 c j) :=
  shapeCast_apply r hc _ _ (by
    rw [Shape.rowMajor_val_two, Shape.rowMajor_val_three]; show c.val * 7 + j.val = (c.val * 1 + 0) * 7 + j.val; omega)

/-- Seven columns laid side by side, read at (c, j): column j at (c, 0). -/
theorem cat_cols (x0 x1 x2 x3 x4 x5 x6 : Col.Idx → EReal)
    (h : Shape.Concatenates [Col, Col, Col, Col, Col, Col, Col] Row 1) (c : Fin 128) (j : Fin 7) :
    concatenate Row 1 [⟨Col, x0⟩, ⟨Col, x1⟩, ⟨Col, x2⟩, ⟨Col, x3⟩, ⟨Col, x4⟩, ⟨Col, x5⟩, ⟨Col, x6⟩] h (ix2 c j)
      = (![x0, x1, x2, x3, x4, x5, x6] : Fin 7 → Col.Idx → EReal) j (ix2 c (0 : Fin 1)) := by
  match j with
  | ⟨0, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 0 (by simp) Col x0 rfl rfl 0 rfl (ix2 c (0 : Fin 1)) offAxis rfl
  | ⟨1, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 1 (by simp) Col x1 rfl rfl 1 rfl (ix2 c (0 : Fin 1)) offAxis rfl
  | ⟨2, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 2 (by simp) Col x2 rfl rfl 2 rfl (ix2 c (0 : Fin 1)) offAxis rfl
  | ⟨3, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 3 (by simp) Col x3 rfl rfl 3 rfl (ix2 c (0 : Fin 1)) offAxis rfl
  | ⟨4, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 4 (by simp) Col x4 rfl rfl 4 rfl (ix2 c (0 : Fin 1)) offAxis rfl
  | ⟨5, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 5 (by simp) Col x5 rfl rfl 5 rfl (ix2 c (0 : Fin 1)) offAxis rfl
  | ⟨6, _⟩ => exact concatenate_apply_piece (1 : Fin Row.rank) [⟨Col, x0⟩, ⟨Col, x1⟩, ⟨Col, x2⟩, ⟨Col, x3⟩, ⟨Col, x4⟩, ⟨Col, x5⟩, ⟨Col, x6⟩] h _ 6 (by simp) Col x6 rfl rfl 6 rfl (ix2 c (0 : Fin 1)) offAxis rfl
where
  offAxis {c : Fin 128} {j : Fin 7} : ∀ b : Fin Col.rank, b.cast (rfl : Col.rank = Row.rank) ≠ (1 : Fin Row.rank) →
      ((ix2 c (0 : Fin 1) : Col.Idx) b).val = ((ix2 c j : Row.Idx) (b.cast rfl)).val := fun b hb => match b with
    | ⟨0, _⟩ => rfl
    | ⟨1, _⟩ => absurd rfl hb

/-- Seven slabs stacked along the middle axis, read at (c, i, j): slab i at (c, 0, j). -/
theorem cat_slabs (x0 x1 x2 x3 x4 x5 x6 : Slab.Idx → EReal)
    (h : Shape.Concatenates [Slab, Slab, Slab, Slab, Slab, Slab, Slab] Grid 1) (c : Fin 128) (i j : Fin 7) :
    concatenate Grid 1 [⟨Slab, x0⟩, ⟨Slab, x1⟩, ⟨Slab, x2⟩, ⟨Slab, x3⟩, ⟨Slab, x4⟩, ⟨Slab, x5⟩, ⟨Slab, x6⟩] h (ix3 c i j)
      = (![x0, x1, x2, x3, x4, x5, x6] : Fin 7 → Slab.Idx → EReal) i (ix3 c (0 : Fin 1) j) := by
  match i with
  | ⟨0, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 0 (by simp) Slab x0 rfl rfl 0 rfl (ix3 c (0 : Fin 1) j) offAxis rfl
  | ⟨1, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 1 (by simp) Slab x1 rfl rfl 1 rfl (ix3 c (0 : Fin 1) j) offAxis rfl
  | ⟨2, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 2 (by simp) Slab x2 rfl rfl 2 rfl (ix3 c (0 : Fin 1) j) offAxis rfl
  | ⟨3, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 3 (by simp) Slab x3 rfl rfl 3 rfl (ix3 c (0 : Fin 1) j) offAxis rfl
  | ⟨4, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 4 (by simp) Slab x4 rfl rfl 4 rfl (ix3 c (0 : Fin 1) j) offAxis rfl
  | ⟨5, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 5 (by simp) Slab x5 rfl rfl 5 rfl (ix3 c (0 : Fin 1) j) offAxis rfl
  | ⟨6, _⟩ => exact concatenate_apply_piece (1 : Fin Grid.rank) [⟨Slab, x0⟩, ⟨Slab, x1⟩, ⟨Slab, x2⟩, ⟨Slab, x3⟩, ⟨Slab, x4⟩, ⟨Slab, x5⟩, ⟨Slab, x6⟩] h _ 6 (by simp) Slab x6 rfl rfl 6 rfl (ix3 c (0 : Fin 1) j) offAxis rfl
where
  offAxis {c : Fin 128} {i j : Fin 7} : ∀ b : Fin Slab.rank, b.cast (rfl : Slab.rank = Grid.rank) ≠ (1 : Fin Grid.rank) →
      ((ix3 c (0 : Fin 1) j : Slab.Idx) b).val = ((ix3 c i j : Grid.Idx) (b.cast rfl)).val := fun b hb => match b with
    | ⟨0, _⟩ => rfl
    | ⟨1, _⟩ => absurd rfl hb
    | ⟨2, _⟩ => rfl

/-- A ROW OF THE RESULT: seven window maxima, those of the windows starting at row `i` and columns 0‥6 of the crop,
    each a [128] vector made a column, the columns laid side by side. Entry (c, j) has the upper bounds of the
    window at (i, j). -/
theorem row_le_iff (v1 : Crop.Idx → EReal) (i : Nat) (hi : i + 37 ≤ 43)
    (e0 e1 e2 e3 e4 e5 e6 : Chan.Idx → EReal)
    (he0 : ∀ (c : Fin 128) (z : EReal), e0 (ix1 c) ≤ z ↔ ∀ p q : Fin 37, v1 (ix3 c ⟨i + p.val, by have := p.isLt; omega⟩ ⟨0 + q.val, by have := q.isLt; omega⟩) ≤ z)
    (he1 : ∀ (c : Fin 128) (z : EReal), e1 (ix1 c) ≤ z ↔ ∀ p q : Fin 37, v1 (ix3 c ⟨i + p.val, by have := p.isLt; omega⟩ ⟨1 + q.val, by have := q.isLt; omega⟩) ≤ z)
    (he2 : ∀ (c : Fin 128) (z : EReal), e2 (ix1 c) ≤ z ↔ ∀ p q : Fin 37, v1 (ix3 c ⟨i + p.val, by have := p.isLt; omega⟩ ⟨2 + q.val, by have := q.isLt; omega⟩) ≤ z)
    (he3 : ∀ (c : Fin 128) (z : EReal), e3 (ix1 c) ≤ z ↔ ∀ p q : Fin 37, v1 (ix3 c ⟨i + p.val, by have := p.isLt; omega⟩ ⟨3 + q.val, by have := q.isLt; omega⟩) ≤ z)
    (he4 : ∀ (c : Fin 128) (z : EReal), e4 (ix1 c) ≤ z ↔ ∀ p q : Fin 37, v1 (ix3 c ⟨i + p.val, by have := p.isLt; omega⟩ ⟨4 + q.val, by have := q.isLt; omega⟩) ≤ z)
    (he5 : ∀ (c : Fin 128) (z : EReal), e5 (ix1 c) ≤ z ↔ ∀ p q : Fin 37, v1 (ix3 c ⟨i + p.val, by have := p.isLt; omega⟩ ⟨5 + q.val, by have := q.isLt; omega⟩) ≤ z)
    (he6 : ∀ (c : Fin 128) (z : EReal), e6 (ix1 c) ≤ z ↔ ∀ p q : Fin 37, v1 (ix3 c ⟨i + p.val, by have := p.isLt; omega⟩ ⟨6 + q.val, by have := q.isLt; omega⟩) ≤ z)
    (hc : Chan.ShapeCasts Col) (h : Shape.Concatenates [Col, Col, Col, Col, Col, Col, Col] Row 1)
    (c : Fin 128) (j : Fin 7) (z : EReal) :
    concatenate Row 1 [⟨Col, shapeCast Col e0 hc⟩, ⟨Col, shapeCast Col e1 hc⟩, ⟨Col, shapeCast Col e2 hc⟩, ⟨Col, shapeCast Col e3 hc⟩, ⟨Col, shapeCast Col e4 hc⟩, ⟨Col, shapeCast Col e5 hc⟩, ⟨Col, shapeCast Col e6 hc⟩] h (ix2 c j) ≤ z
      ↔ ∀ p q : Fin 37, v1 (ix3 c ⟨i + p.val, by have := p.isLt; omega⟩ ⟨j.val + q.val, by have := q.isLt; have := j.isLt; omega⟩) ≤ z := by
  rw [cat_cols]
  match j with
  | ⟨0, _⟩ =>
    show shapeCast Col e0 hc (ix2 c (0 : Fin 1)) ≤ z ↔ ∀ p q : Fin 37, v1 (ix3 c ⟨i + p.val, _⟩ ⟨0 + q.val, _⟩) ≤ z
    rw [col_apply]; exact he0 c z
  | ⟨1, _⟩ =>
    show shapeCast Col e1 hc (ix2 c (0 : Fin 1)) ≤ z ↔ ∀ p q : Fin 37, v1 (ix3 c ⟨i + p.val, _⟩ ⟨1 + q.val, _⟩) ≤ z
    rw [col_apply]; exact he1 c z
  | ⟨2, _⟩ =>
    show shapeCast Col e2 hc (ix2 c (0 : Fin 1)) ≤ z ↔ ∀ p q : Fin 37, v1 (ix3 c ⟨i + p.val, _⟩ ⟨2 + q.val, _⟩) ≤ z
    rw [col_apply]; exact he2 c z
  | ⟨3, _⟩ =>
    show shapeCast Col e3 hc (ix2 c (0 : Fin 1)) ≤ z ↔ ∀ p q : Fin 37, v1 (ix3 c ⟨i + p.val, _⟩ ⟨3 + q.val, _⟩) ≤ z
    rw [col_apply]; exact he3 c z
  | ⟨4, _⟩ =>
    show shapeCast Col e4 hc (ix2 c (0 : Fin 1)) ≤ z ↔ ∀ p q : Fin 37, v1 (ix3 c ⟨i + p.val, _⟩ ⟨4 + q.val, _⟩) ≤ z
    rw [col_apply]; exact he4 c z
  | ⟨5, _⟩ =>
    show shapeCast Col e5 hc (ix2 c (0 : Fin 1)) ≤ z ↔ ∀ p q : Fin 37, v1 (ix3 c ⟨i + p.val, _⟩ ⟨5 + q.val, _⟩) ≤ z
    rw [col_apply]; exact he5 c z
  | ⟨6, _⟩ =>
    show shapeCast Col e6 hc (ix2 c (0 : Fin 1)) ≤ z ↔ ∀ p q : Fin 37, v1 (ix3 c ⟨i + p.val, _⟩ ⟨6 + q.val, _⟩) ≤ z
    rw [col_apply]; exact he6 c z

/-- THE RESULT BLOCK: seven such rows, each made a slab [128, 1, 7], stacked along the middle axis. Entry (c, i, j)
    has the upper bounds of the window at (i, j). -/
theorem stack_le_iff (v1 : Crop.Idx → EReal)
    (r0 r1 r2 r3 r4 r5 r6 : Row.Idx → EReal)
    (hr0 : ∀ (c : Fin 128) (j : Fin 7) (z : EReal), r0 (ix2 c j) ≤ z ↔ ∀ p q : Fin 37, v1 (ix3 c ⟨0 + p.val, by have := p.isLt; omega⟩ ⟨j.val + q.val, by have := q.isLt; have := j.isLt; omega⟩) ≤ z)
    (hr1 : ∀ (c : Fin 128) (j : Fin 7) (z : EReal), r1 (ix2 c j) ≤ z ↔ ∀ p q : Fin 37, v1 (ix3 c ⟨1 + p.val, by have := p.isLt; omega⟩ ⟨j.val + q.val, by have := q.isLt; have := j.isLt; omega⟩) ≤ z)
    (hr2 : ∀ (c : Fin 128) (j : Fin 7) (z : EReal), r2 (ix2 c j) ≤ z ↔ ∀ p q : Fin 37, v1 (ix3 c ⟨2 + p.val, by have := p.isLt; omega⟩ ⟨j.val + q.val, by have := q.isLt; have := j.isLt; omega⟩) ≤ z)
    (hr3 : ∀ (c : Fin 128) (j : Fin 7) (z : EReal), r3 (ix2 c j) ≤ z ↔ ∀ p q : Fin 37, v1 (ix3 c ⟨3 + p.val, by have := p.isLt; omega⟩ ⟨j.val + q.val, by have := q.isLt; have := j.isLt; omega⟩) ≤ z)
    (hr4 : ∀ (c : Fin 128) (j : Fin 7) (z : EReal), r4 (ix2 c j) ≤ z ↔ ∀ p q : Fin 37, v1 (ix3 c ⟨4 + p.val, by have := p.isLt; omega⟩ ⟨j.val + q.val, by have := q.isLt; have := j.isLt; omega⟩) ≤ z)
    (hr5 : ∀ (c : Fin 128) (j : Fin 7) (z : EReal), r5 (ix2 c j) ≤ z ↔ ∀ p q : Fin 37, v1 (ix3 c ⟨5 + p.val, by have := p.isLt; omega⟩ ⟨j.val + q.val, by have := q.isLt; have := j.isLt; omega⟩) ≤ z)
    (hr6 : ∀ (c : Fin 128) (j : Fin 7) (z : EReal), r6 (ix2 c j) ≤ z ↔ ∀ p q : Fin 37, v1 (ix3 c ⟨6 + p.val, by have := p.isLt; omega⟩ ⟨j.val + q.val, by have := q.isLt; have := j.isLt; omega⟩) ≤ z)
    (hc : Row.ShapeCasts Slab) (h : Shape.Concatenates [Slab, Slab, Slab, Slab, Slab, Slab, Slab] Grid 1)
    (c : Fin 128) (i j : Fin 7) (z : EReal) :
    concatenate Grid 1 [⟨Slab, shapeCast Slab r0 hc⟩, ⟨Slab, shapeCast Slab r1 hc⟩, ⟨Slab, shapeCast Slab r2 hc⟩, ⟨Slab, shapeCast Slab r3 hc⟩, ⟨Slab, shapeCast Slab r4 hc⟩, ⟨Slab, shapeCast Slab r5 hc⟩, ⟨Slab, shapeCast Slab r6 hc⟩] h (ix3 c i j) ≤ z
      ↔ ∀ p q : Fin 37, v1 (ix3 c ⟨i.val + p.val, by have := p.isLt; have := i.isLt; omega⟩ ⟨j.val + q.val, by have := q.isLt; have := j.isLt; omega⟩) ≤ z := by
  rw [cat_slabs]
  match i with
  | ⟨0, _⟩ =>
    show shapeCast Slab r0 hc (ix3 c (0 : Fin 1) j) ≤ z ↔ ∀ p q : Fin 37, v1 (ix3 c ⟨0 + p.val, _⟩ ⟨j.val + q.val, _⟩) ≤ z
    rw [slab_apply]; exact hr0 c j z
  | ⟨1, _⟩ =>
    show shapeCast Slab r1 hc (ix3 c (0 : Fin 1) j) ≤ z ↔ ∀ p q : Fin 37, v1 (ix3 c ⟨1 + p.val, _⟩ ⟨j.val + q.val, _⟩) ≤ z
    rw [slab_apply]; exact hr1 c j z
  | ⟨2, _⟩ =>
    show shapeCast Slab r2 hc (ix3 c (0 : Fin 1) j) ≤ z ↔ ∀ p q : Fin 37, v1 (ix3 c ⟨2 + p.val, _⟩ ⟨j.val + q.val, _⟩) ≤ z
    rw [slab_apply]; exact hr2 c j z
  | ⟨3, _⟩ =>
    show shapeCast Slab r3 hc (ix3 c (0 : Fin 1) j) ≤ z ↔ ∀ p q : Fin 37, v1 (ix3 c ⟨3 + p.val, _⟩ ⟨j.val + q.val, _⟩) ≤ z
    rw [slab_apply]; exact hr3 c j z
  | ⟨4, _⟩ =>
    show shapeCast Slab r4 hc (ix3 c (0 : Fin 1) j) ≤ z ↔ ∀ p q : Fin 37, v1 (ix3 c ⟨4 + p.val, _⟩ ⟨j.val + q.val, _⟩) ≤ z
    rw [slab_apply]; exact hr4 c j z
  | ⟨5, _⟩ =>
    show shapeCast Slab r5 hc (ix3 c (0 : Fin 1) j) ≤ z ↔ ∀ p q : Fin 37, v1 (ix3 c ⟨5 + p.val, _⟩ ⟨j.val + q.val, _⟩) ≤ z
    rw [slab_apply]; exact hr5 c j z
  | ⟨6, _⟩ =>
    show shapeCast Slab r6 hc (ix3 c (0 : Fin 1) j) ≤ z ↔ ∀ p q : Fin 37, v1 (ix3 c ⟨6 + p.val, _⟩ ⟨j.val + q.val, _⟩) ≤ z
    rw [slab_apply]; exact hr6 c j z

end Cert.PoolEntry

end
-- ==== Proof.PoolBlock.lean ====
/-
  The body's stored value at an index, over the extended reals: entry (c, i, j) of the [128, 7, 7] block the body
  stores is bounded by z exactly when every entry (c, i + p, j + q), 0 ≤ p, q < 37, of the loaded [128, 48, 128]
  block is. The stored value is the stack of seven rows of seven window maxima of the block's [128, 43, 43] corner
  (the 49 entries in the order the program computes them), and the corner at an index is the block there.
-/
import proofs.«102390_j7215545057804_2_alg».proof.Proof.BodyI
import proofs.«102390_j7215545057804_2_alg».proof.Proof.PoolEntry

set_option maxRecDepth 16384

noncomputable section

namespace Cert.KernelIdeal.PoolBlock

open Cert.KernelIdeal Cert.KernelIdeal.Gen Cert.KernelIdeal.Body
open Idealize.ShloMosaic Idealize.ShloMosaic.ValueIdx Cert.WindowMax Cert.PoolEntry

/-- The corner of the loaded block at (c, r, s) is the block there. -/
theorem corner_apply (v0 : Vec Ideal S128x48x128 .f32) (c : Fin 128) (r s : Fin 43) :
    corner (F := Ideal) v0 (ix3 c r s)
      = v0 (ix3 c ⟨r.val, by have := r.isLt; omega⟩ ⟨s.val, by have := s.isLt; omega⟩) := by
  show k0_pay2 (F := Ideal) v0 (ix3 c r s) = _
  unfold k0_pay2
  exact extractStridedSlice_apply ![0, 0, 0] v0 _ _ _ (fun a => match a with
    | ⟨0, _⟩ => by show c.val = 0 + c.val; omega
    | ⟨1, _⟩ => by show r.val = 0 + r.val; omega
    | ⟨2, _⟩ => by show s.val = 0 + s.val; omega)

set_option maxHeartbeats 1000000 in
/-- The stored block over its corner: the seven rows, each of seven window maxima, stacked. -/
theorem poolBlock_corner (v0 : Vec Ideal S128x48x128 .f32) (c : Fin 128) (i j : Fin 7) (z : EReal) :
    poolBlock (F := Ideal) v0 (ix3 c i j) ≤ z
      ↔ ∀ p q : Fin 37, corner (F := Ideal) v0 (ix3 c ⟨i.val + p.val, by have := p.isLt; have := i.isLt; omega⟩
          ⟨j.val + q.val, by have := q.isLt; have := j.isLt; omega⟩) ≤ z := by
  unfold poolBlock k0_pay1 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29
  dsimp only
  exact stack_le_iff (corner v0) _ _ _ _ _ _ _
    (fun c j z => row_le_iff (corner v0) 0 (by omega) _ _ _ _ _ _ _
      (fun c z => entry_le_iff (corner v0) 0 0 (by omega) (by omega) _ _ _ _ _ _ _ c z)
      (fun c z => entry_le_iff (corner v0) 0 1 (by omega) (by omega) _ _ _ _ _ _ _ c z)
      (fun c z => entry_le_iff (corner v0) 0 2 (by omega) (by omega) _ _ _ _ _ _ _ c z)
      (fun c z => entry_le_iff (corner v0) 0 3 (by omega) (by omega) _ _ _ _ _ _ _ c z)
      (fun c z => entry_le_iff (corner v0) 0 4 (by omega) (by omega) _ _ _ _ _ _ _ c z)
      (fun c z => entry_le_iff (corner v0) 0 5 (by omega) (by omega) _ _ _ _ _ _ _ c z)
      (fun c z => entry_le_iff (corner v0) 0 6 (by omega) (by omega) _ _ _ _ _ _ _ c z)
      _ _ c j z)
    (fun c j z => row_le_iff (corner v0) 1 (by omega) _ _ _ _ _ _ _
      (fun c z => entry_le_iff (corner v0) 1 0 (by omega) (by omega) _ _ _ _ _ _ _ c z)
      (fun c z => entry_le_iff (corner v0) 1 1 (by omega) (by omega) _ _ _ _ _ _ _ c z)
      (fun c z => entry_le_iff (corner v0) 1 2 (by omega) (by omega) _ _ _ _ _ _ _ c z)
      (fun c z => entry_le_iff (corner v0) 1 3 (by omega) (by omega) _ _ _ _ _ _ _ c z)
      (fun c z => entry_le_iff (corner v0) 1 4 (by omega) (by omega) _ _ _ _ _ _ _ c z)
      (fun c z => entry_le_iff (corner v0) 1 5 (by omega) (by omega) _ _ _ _ _ _ _ c z)
      (fun c z => entry_le_iff (corner v0) 1 6 (by omega) (by omega) _ _ _ _ _ _ _ c z)
      _ _ c j z)
    (fun c j z => row_le_iff (corner v0) 2 (by omega) _ _ _ _ _ _ _
      (fun c z => entry_le_iff (corner v0) 2 0 (by omega) (by omega) _ _ _ _ _ _ _ c z)
      (fun c z => entry_le_iff (corner v0) 2 1 (by omega) (by omega) _ _ _ _ _ _ _ c z)
      (fun c z => entry_le_iff (corner v0) 2 2 (by omega) (by omega) _ _ _ _ _ _ _ c z)
      (fun c z => entry_le_iff (corner v0) 2 3 (by omega) (by omega) _ _ _ _ _ _ _ c z)
      (fun c z => entry_le_iff (corner v0) 2 4 (by omega) (by omega) _ _ _ _ _ _ _ c z)
      (fun c z => entry_le_iff (corner v0) 2 5 (by omega) (by omega) _ _ _ _ _ _ _ c z)
      (fun c z => entry_le_iff (corner v0) 2 6 (by omega) (by omega) _ _ _ _ _ _ _ c z)
      _ _ c j z)
    (fun c j z => row_le_iff (corner v0) 3 (by omega) _ _ _ _ _ _ _
      (fun c z => entry_le_iff (corner v0) 3 0 (by omega) (by omega) _ _ _ _ _ _ _ c z)
      (fun c z => entry_le_iff (corner v0) 3 1 (by omega) (by omega) _ _ _ _ _ _ _ c z)
      (fun c z => entry_le_iff (corner v0) 3 2 (by omega) (by omega) _ _ _ _ _ _ _ c z)
      (fun c z => entry_le_iff (corner v0) 3 3 (by omega) (by omega) _ _ _ _ _ _ _ c z)
      (fun c z => entry_le_iff (corner v0) 3 4 (by omega) (by omega) _ _ _ _ _ _ _ c z)
      (fun c z => entry_le_iff (corner v0) 3 5 (by omega) (by omega) _ _ _ _ _ _ _ c z)
      (fun c z => entry_le_iff (corner v0) 3 6 (by omega) (by omega) _ _ _ _ _ _ _ c z)
      _ _ c j z)
    (fun c j z => row_le_iff (corner v0) 4 (by omega) _ _ _ _ _ _ _
      (fun c z => entry_le_iff (corner v0) 4 0 (by omega) (by omega) _ _ _ _ _ _ _ c z)
      (fun c z => entry_le_iff (corner v0) 4 1 (by omega) (by omega) _ _ _ _ _ _ _ c z)
      (fun c z => entry_le_iff (corner v0) 4 2 (by omega) (by omega) _ _ _ _ _ _ _ c z)
      (fun c z => entry_le_iff (corner v0) 4 3 (by omega) (by omega) _ _ _ _ _ _ _ c z)
      (fun c z => entry_le_iff (corner v0) 4 4 (by omega) (by omega) _ _ _ _ _ _ _ c z)
      (fun c z => entry_le_iff (corner v0) 4 5 (by omega) (by omega) _ _ _ _ _ _ _ c z)
      (fun c z => entry_le_iff (corner v0) 4 6 (by omega) (by omega) _ _ _ _ _ _ _ c z)
      _ _ c j z)
    (fun c j z => row_le_iff (corner v0) 5 (by omega) _ _ _ _ _ _ _
      (fun c z => entry_le_iff (corner v0) 5 0 (by omega) (by omega) _ _ _ _ _ _ _ c z)
      (fun c z => entry_le_iff (corner v0) 5 1 (by omega) (by omega) _ _ _ _ _ _ _ c z)
      (fun c z => entry_le_iff (corner v0) 5 2 (by omega) (by omega) _ _ _ _ _ _ _ c z)
      (fun c z => entry_le_iff (corner v0) 5 3 (by omega) (by omega) _ _ _ _ _ _ _ c z)
      (fun c z => entry_le_iff (corner v0) 5 4 (by omega) (by omega) _ _ _ _ _ _ _ c z)
      (fun c z => entry_le_iff (corner v0) 5 5 (by omega) (by omega) _ _ _ _ _ _ _ c z)
      (fun c z => entry_le_iff (corner v0) 5 6 (by omega) (by omega) _ _ _ _ _ _ _ c z)
      _ _ c j z)
    (fun c j z => row_le_iff (corner v0) 6 (by omega) _ _ _ _ _ _ _
      (fun c z => entry_le_iff (corner v0) 6 0 (by omega) (by omega) _ _ _ _ _ _ _ c z)
      (fun c z => entry_le_iff (corner v0) 6 1 (by omega) (by omega) _ _ _ _ _ _ _ c z)
      (fun c z => entry_le_iff (corner v0) 6 2 (by omega) (by omega) _ _ _ _ _ _ _ c z)
      (fun c z => entry_le_iff (corner v0) 6 3 (by omega) (by omega) _ _ _ _ _ _ _ c z)
      (fun c z => entry_le_iff (corner v0) 6 4 (by omega) (by omega) _ _ _ _ _ _ _ c z)
      (fun c z => entry_le_iff (corner v0) 6 5 (by omega) (by omega) _ _ _ _ _ _ _ c z)
      (fun c z => entry_le_iff (corner v0) 6 6 (by omega) (by omega) _ _ _ _ _ _ _ c z)
      _ _ c j z)
    _ _ c i j z

/-- THE STORED BLOCK AT AN INDEX, by its upper bounds. -/
theorem poolBlock_le_iff (v0 : Vec Ideal S128x48x128 .f32) (c : Fin 128) (i j : Fin 7) (z : EReal) :
    poolBlock (F := Ideal) v0 (ix3 c i j) ≤ z
      ↔ ∀ p q : Fin 37, v0 (ix3 c ⟨i.val + p.val, by have := p.isLt; have := i.isLt; omega⟩
          ⟨j.val + q.val, by have := q.isLt; have := j.isLt; omega⟩) ≤ z := by
  rw [poolBlock_corner]
  refine forall₂_congr fun p q => ?_
  rw [corner_apply]

end Cert.KernelIdeal.PoolBlock

end
-- ==== Proof.KernelValue.lean ====
/-
  What the pooling kernel leaves in its result array: at every index, the pooled value of the argument.

  Point t of the grid writes back the [128, 7, 7] block of the result that starts at channel 128·t, and what it writes
  is the body's stored block of the input buffer, which holds the argument's [128, 48, 128] block starting at
  channel 128·t, row 0, column 0 (`held_apply`). Entry (c, i, j) of the stored block has the upper bounds of the
  block's entries (c, i + p, j + q), 0 ≤ p, q < 37, which are the argument's entries (128·t + c, i + p, j + q): the
  window of the pooled value at the result's index (128·t + c, i, j) (`written_back`). The sixteen blocks tile the
  result's 2048 channels (`covered`), so the result array ends as the pooled value everywhere (`result`).
-/
import proofs.«102390_j7215545057804_2_alg».proof.Proof.PoolBlock

set_option maxRecDepth 16384

noncomputable section

namespace Cert.KernelIdeal.PoolValue

open Cert.KernelIdeal Cert.KernelIdeal.Gen Cert.KernelIdeal.Body Cert.KernelIdeal.PoolBlock
open Idealize.ShloMosaic Idealize.ShloMosaic.TcCoe Idealize.ShloMosaic.ValueIdx Idealize.SL.Sem
open Idealize.ShloMosaic.Pipeline (Dat Cfg Window)
open Cert.WindowMax

variable (m : (ℓ : Loc nD τ sig) → Buf (Elt Ideal) ℓ) (ρ : Dev nD → PrngReg)

theorem zeros : (![0, 0, 0] : Fin 3 → Nat) = fun _ => 0 := funext fun a => by fin_cases a <;> rfl

/-- The printed index maps over the grid: at point t both windows are at block t of the channels and block 0 of
    the rows and columns. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input buffer at (c, r, s) is the argument at (128·t + c, r, s). -/
theorem held_apply (c : Dev nD) (t : Fin cfg0.N) (y : S128x48x128.Idx) (k : S2048x256x256.Idx)
    (hk : ∀ a : Fin 3, (k a).val = win0_0.index t a * S128x48x128.size a + (y a).val) :
    held m c t y = V m c main_arg0 k := by
  have hmv : win0_0.moved (grid0.coords t) y = true :=
    (win0_0.moved_iff _ y).mpr fun a => by
      have := (y a).isLt; unfold Window.xsize; rw [uncut t a]; exact this
  unfold held Window.fill
  rw [dif_pos hmv]
  unfold iblk
  show V m c main_arg0 (((cfg0.win 0).blk t).view.emb _) = V m c main_arg0 k
  refine congrArg _ (funext fun a => Fin.ext ?_)
  rw [hk a]
  exact win0_0.rect_emb_val t _ a

/-- WHAT POINT t WRITES BACK is block t of the pooled value of the argument. -/
theorem written_back (c : Dev nD) (t : Fin cfg0.N) :
    (dats m 0 c).flushed 1 t
      = ((cfg0.win 1).blk t).view.read (Elt Ideal) (fun i => pooled (V m c main_arg0) i) := by
  show (cfg0.win 1).cut (grid0.coords t) ((dats m 0 c).after 1 t) = _
  rw [after_out]
  unfold stored
  rw [View.canon_unit_zero zeros]
  simp only [View.ld_unit_zero (S := S128x48x128) zeros]
  obtain ⟨e0, e1, e2, f0, f1, f2⟩ := block_index t
  funext y
  obtain ⟨cc, i, j, rfl⟩ : ∃ (cc : Fin 128) (i j : Fin 7), y = ix3 cc i j := ⟨y 0, y 1, y 2, eq_ix3 y⟩
  show poolBlock (held m c t) (ix3 cc i j) = pooled (V m c main_arg0) (((cfg0.win 1).blk t).view.emb (ix3 cc i j))
  refine eq_pooled _ _ _ fun z => ?_
  rw [poolBlock_le_iff]
  refine forall₂_congr fun p q => ?_
  rw [held_apply m c t _ (at_ (((cfg0.win 1).blk t).view.emb (ix3 cc i j)) p q) (fun a => match a with
    | ⟨0, _⟩ => by
      show win0_1.index t (0 : Fin 3) * 128 + 1 * cc.val = win0_0.index t (0 : Fin 3) * 128 + cc.val; omega
    | ⟨1, _⟩ => by
      show win0_1.index t (1 : Fin 3) * 7 + 1 * i.val + p.val = win0_0.index t (1 : Fin 3) * 48 + (i.val + p.val); omega
    | ⟨2, _⟩ => by
      show win0_1.index t (2 : Fin 3) * 7 + 1 * j.val + q.val = win0_0.index t (2 : Fin 3) * 128 + (j.val + q.val); omega)]

/-- An index of the result is in point t's block exactly when each coordinate is in the block's range. -/
theorem mem_block (t : Fin cfg0.N) (i : S2048x7x7.Idx) :
    i ∈ ((cfg0.win 1).blk t).view.set
      ↔ ∀ a : Fin 3, win0_1.index t a * S128x7x7.size a ≤ (i a).val
          ∧ (i a).val < win0_1.index t a * S128x7x7.size a + S128x7x7.size a := by
  show i ∈ ((View.whole main_v0).slice (win0_1.rect t)).set ↔ _
  rw [View.set_slice_whole, Rect.mem_set_unit]
  exact Iff.rfl

/-- Every index of the result is in the block of the point its channel names: channel k is in block k / 128. -/
theorem covered (i : S2048x7x7.Idx) :
    ∃ t : Fin cfg0.N, (cfg0.win 1).flush t = true ∧ i ∈ ((cfg0.win 1).blk t).view.set := by
  have h0 : (i 0).val < 2048 := (i 0).isLt
  have h1 : (i 1).val < 7 := (i 1).isLt
  have h2 : (i 2).val < 7 := (i 2).isLt
  have hN : cfg0.N = 16 := N_0
  refine ⟨⟨(i 0).val / 128, by rw [hN]; omega⟩, flush0_1 _, ?_⟩
  obtain ⟨-, -, -, f0, f1, f2⟩ := block_index ⟨(i 0).val / 128, by rw [hN]; omega⟩
  rw [mem_block]
  intro a
  match a with
  | ⟨0, _⟩ =>
    show win0_1.index _ (0 : Fin 3) * 128 ≤ (i 0).val ∧ (i 0).val < win0_1.index _ (0 : Fin 3) * 128 + 128
    rw [f0]; show (i 0).val / 128 * 128 ≤ (i 0).val ∧ (i 0).val < (i 0).val / 128 * 128 + 128; omega
  | ⟨1, _⟩ =>
    show win0_1.index _ (1 : Fin 3) * 7 ≤ (i 1).val ∧ (i 1).val < win0_1.index _ (1 : Fin 3) * 7 + 7
    rw [f1]; omega
  | ⟨2, _⟩ =>
    show win0_1.index _ (2 : Fin 3) * 7 ≤ (i 2).val ∧ (i 2).val < win0_1.index _ (2 : Fin 3) * 7 + 7
    rw [f2]; omega

/-- THE RESULT ARRAY after the run: the pooled value of the argument, everywhere. -/
theorem result (c : Dev nD) :
    (dats m 0 c).arrAt 1 cfg0.N = fun i => pooled (m ((c : Thread nD τ).loc main_arg0)) i :=
  (dats m 0 c).arrAt_eq_of_cover 1 _ (fun t _ => written_back m c t) covered

/-- The run of the idealized kernel, read: the result array at the pooled value of the argument, the argument as
    it was. -/
theorem run : θ_run defs (onTc (τ := τ) (main (F := Ideal))) ⟨m, fun _ => 0, ρ⟩ fun r => ∀ c : Dev nD,
      r.2.mem ((c.tc : Thread nD τ).loc main_v0) = (fun i => pooled (m ((c.tc : Thread nD τ).loc main_arg0)) i)
      ∧ r.2.mem ((c.tc : Thread nD τ).loc main_arg0) = m ((c.tc : Thread nD τ).loc main_arg0) :=
  (θ_run defs _ _).mono (fun r h c => ⟨((h c).1 1).trans (result m c),
      ((h c).1 0).trans (((dats m 0 c).arrAt_in 0 rfl _).trans (A_eq m c 0))⟩)
    (Body.run m ρ)

end Cert.KernelIdeal.PoolValue

end
-- ==== Proof.RefValue.lean ====
/-
  The reference's result, index by index: the pooled value.

  The reference crops the argument to its first 43 rows and columns and takes a window reduction of the crop with
  `max`, from -∞, over windows of one channel, 37 rows and 37 columns at stride one. At an output index that is a
  left fold of `max` over the 1369 positions of the window in row-major order; every position lies inside the crop,
  so no term is the padding value. The fold's upper bounds are those of its terms (-∞ bounds nothing), a position
  of the window is a pair (row, column), and the crop at a shifted index is the argument there: the fold is the
  least upper bound of the window's entries.
-/
import proofs.«102390_j7215545057804_2_alg».proof.Proof.Gen.ReferenceIdeal.Read
import proofs.«102390_j7215545057804_2_alg».proof.Proof.WindowMax

noncomputable section
namespace Cert.ReferenceIdeal.RefValue
open Cert.ReferenceIdeal Cert.ReferenceIdeal.Read Idealize.ShloMosaic Idealize.ShloMosaic.ValueIdx Cert.WindowMax

/-- One term of the reference's fold: the cropped array at the output index shifted by the window position `w`
    (the position is always inside the crop: the `else` branch, the padding value, is never taken). -/
def term (x : S2048x43x43.Idx → EReal) (jj : S2048x7x7.Idx) (w : Win.Idx) : EReal :=
  @dite EReal (∀ a : Fin 3, (![0, 0, 0] : Fin 3 → Nat) a ≤ (jj a).val * (![1, 1, 1] : Fin 3 → Nat) a + (w a).val
      ∧ (jj a).val * (![1, 1, 1] : Fin 3 → Nat) a + (w a).val - (![0, 0, 0] : Fin 3 → Nat) a < (![2048, 43, 43] : Fin 3 → Nat) a)
    (Nat.decidableForallFin _)
    (fun hin => x (fun a => ⟨(jj a).val * (![1, 1, 1] : Fin 3 → Nat) a + (w a).val - (![0, 0, 0] : Fin 3 → Nat) a, (hin a).2⟩))
    (fun _ => ⊥)

theorem term_eq (x0 : S2048x256x256.Idx → EReal) (jj : S2048x7x7.Idx) (w : Win.Idx) :
    term (val_main_v0 (F := Ideal) x0) jj w = x0 (at_ jj (w 1) (w 2)) := by
  have h0 : (w 0).val < 1 := (w 0).isLt
  have h1 : (w 1).val < 37 := (w 1).isLt
  have h2 : (w 2).val < 37 := (w 2).isLt
  have j0 : (jj 0).val < 2048 := (jj 0).isLt
  have j1 : (jj 1).val < 7 := (jj 1).isLt
  have j2 : (jj 2).val < 7 := (jj 2).isLt
  have hin : ∀ a : Fin 3, (![0, 0, 0] : Fin 3 → Nat) a ≤ (jj a).val * (![1, 1, 1] : Fin 3 → Nat) a + (w a).val
      ∧ (jj a).val * (![1, 1, 1] : Fin 3 → Nat) a + (w a).val - (![0, 0, 0] : Fin 3 → Nat) a < (![2048, 43, 43] : Fin 3 → Nat) a :=
    fun a => match a with
    | ⟨0, _⟩ => ⟨Nat.zero_le _, by show (jj 0).val * 1 + (w 0).val - 0 < 2048; omega⟩
    | ⟨1, _⟩ => ⟨Nat.zero_le _, by show (jj 1).val * 1 + (w 1).val - 0 < 43; omega⟩
    | ⟨2, _⟩ => ⟨Nat.zero_le _, by show (jj 2).val * 1 + (w 2).val - 0 < 43; omega⟩
  unfold term
  rw [dif_pos hin, val_main_v0_apply]
  refine congrArg x0 (funext fun a => ?_)
  match a with
  | ⟨0, _⟩ => exact Fin.ext (by show (jj 0).val * 1 + (w 0).val - 0 = (jj 0).val; omega)
  | ⟨1, _⟩ => exact Fin.ext (by show (jj 1).val * 1 + (w 1).val - 0 = (jj 1).val + (w 1).val; omega)
  | ⟨2, _⟩ => exact Fin.ext (by show (jj 2).val * 1 + (w 2).val - 0 = (jj 2).val + (w 2).val; omega)

/-- THE REFERENCE IS THE POOLED VALUE, at every output index. -/
theorem ref_pooled (x0 : (⟨S2048x256x256, .f32⟩ : BufTy).Contents (Elt Ideal)) (jj : S2048x7x7.Idx) :
    val_main_v2 (F := Ideal) x0 jj = pooled x0 jj := by
  refine eq_pooled x0 jj _ fun z => ?_
  unfold val_main_v2 Host.reduceWindow
  dsimp only
  refine (foldl_max_le_iff _ _ _ z).trans ?_
  have hv : val_main_v1 (F := Ideal) (Shape.Idx.first Gen.h_S_) = (⊥ : EReal) := by
    rw [val_main_v1_apply, val_main_cst_apply]; exact neg_inf
  rw [hv]
  have hr : (∀ p q : Fin 37, x0 (at_ jj p q) ≤ z)
      ↔ ∀ n : Fin Win.numel, x0 (at_ jj (Win.rowMajor.symm n 1) (Win.rowMajor.symm n 2)) ≤ z :=
    (forall_win (P := fun w => x0 (at_ jj (w 1) (w 2)) ≤ z)).symm.trans
      (Equiv.forall_congr_right (q := fun w : Win.Idx => x0 (at_ jj (w 1) (w 2)) ≤ z) Win.rowMajor.symm).symm
  rw [hr]
  show ((⊥ : EReal) ≤ z ∧ ∀ n ∈ List.finRange Win.numel, term (val_main_v0 (F := Ideal) x0) jj (Win.rowMajor.symm n) ≤ z) ↔ _
  simp only [term_eq, bot_le, true_and, List.mem_finRange, forall_true_left]

end Cert.ReferenceIdeal.RefValue
end
-- ==== Proof.lean ====
/-
  The pooling kernel against its reference: out(c, i, j) = max over 0 ≤ p, q < 37 of x(c, i + p, j + q), for x over
  [2048, 256, 256] and (c, i, j) over [2048, 7, 7].

  The kernel stages, at each of 16 grid points, a [128, 48, 128] block of x (128 channels, the first 48 rows and 128
  columns: a super-window of the 43 × 43 corner that the 7 × 7 windows of extent 37 reach) and computes the 49 window
  maxima of the block's corner, each as a maximum along columns and then along rows from -∞. The reference crops x to
  its 43 × 43 corner and takes one window reduction with `max` from -∞. Over the extended reals both are the least
  upper bound of the same 37 × 37 entries (`Cert.WindowMax.pooled`): a maximum is determined by its upper bounds, and a
  fold of `max` from -∞ — along a list or over a finite set, in any grouping — has exactly the upper bounds of its
  terms. No law that needs finiteness is used, so the precondition is never opened.

  The three frames: the two kernels' by the pipeline library's frame run over the body's triple (one whole-buffer
  load, arithmetic, one whole-buffer store); the reference's is its run with the result dropped. The idealization
  rewrote nothing, so `preserves` has no conjunct.
-/
import proofs.«102390_j7215545057804_2_alg».proof.Defs
import proofs.«102390_j7215545057804_2_alg».proof.Proof.Gen.Kernel
import proofs.«102390_j7215545057804_2_alg».proof.Proof.Gen.KernelIdeal
import proofs.«102390_j7215545057804_2_alg».proof.Proof.Gen.ReferenceIdeal
import proofs.«102390_j7215545057804_2_alg».proof.Proof.Gen.Pre_finite_inputs
import proofs.«102390_j7215545057804_2_alg».proof.Proof.BodyK
import proofs.«102390_j7215545057804_2_alg».proof.Proof.KernelValue
import proofs.«102390_j7215545057804_2_alg».proof.Proof.RefValue

noncomputable section

namespace Cert.Proof

open Idealize.ShloMosaic Idealize.ShloMosaic.TcCoe Idealize.SL.Sem

/-- The word-level kernel runs to the end, faults nowhere and leaves x as it was. -/
theorem frame_kernel : Cert.frame_Kernel := fun m ρ _ => Cert.Kernel.Body.frame m ρ

/-- So does the idealized kernel. -/
theorem frame_kernel_ideal : Cert.frame_KernelIdeal := fun m ρ _ => Cert.KernelIdeal.Body.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, both idealized programs end with the pooled value of x in their result. -/
theorem algebraic : Cert.algebraic_KernelIdeal_ReferenceIdeal := by
  intro m ρ m' ρ' _ hagree
  refine ⟨fun c => fun i => Cert.WindowMax.pooled (m ((c.tc : Thread Cert.KernelIdeal.nD Cert.KernelIdeal.τ).loc Cert.KernelIdeal.main_arg0)) i,
    Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, hagree c]
  exact funext fun jj => Cert.ReferenceIdeal.RefValue.ref_pooled _ jj

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
